-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S1000x512 : Shape := ⟨2, ![1000, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S1000x512 : S_.BroadcastsInDim S1000x512 (![] : Fin 0 → Fin S1000x512.rank)
  reducesTo_S1000x512_S_d0_1 : S1000x512.ReducesTo [0, 1] S_

variable [Facts]

def fn {F : FTy → Type} [FloatOps F] (main_arg0 : FVec F S8192x512 .f32) (main_arg1 : FVec F S1000x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S1000x512 .f32 := Host.absf main_arg1
  let main_cst_0 : FVec F S_ .f32 := constant S_ .f32 0x7F800000#32
  let main_v5 : FVec F S1000x512 .f32 := broadcastInDim S1000x512 ![] bcast_S_S1000x512 main_cst_0
  let main_v6 : IVec S1000x512 1 := cmpf .olt main_v4 main_v5
  let main_c_1 : IVec S_ 1 := constantI S_ 1 1#1
  let main_v7 : IVec S_ 1 := (fun x v => Host.reduce IntOp.andi x v reducesTo_S1000x512_S_d0_1 h_S_) main_v6 main_c_1
  let main_v8 : IVec S_ 1 := andi main_v3 main_v7
  main_v8
-- ==== Kernel.lean ====
abbrev S8192x512 : Shape := ⟨2, ![8192, 512]⟩
abbrev S1000x512 : Shape := ⟨2, ![1000, 512]⟩
abbrev S1x512 : Shape := ⟨2, ![1, 512]⟩
abbrev S512 : Shape := ⟨1, ![512]⟩
abbrev S_ : Shape := ⟨0, ![]⟩
abbrev S1000 : Shape := ⟨1, ![1000]⟩
abbrev S1x1 : Shape := ⟨2, ![1, 1]⟩
abbrev S1x1000 : Shape := ⟨2, ![1, 1000]⟩
abbrev S8192x1000 : Shape := ⟨2, ![8192, 1000]⟩
abbrev S1024x512 : Shape := ⟨2, ![1024, 512]⟩
abbrev S1024x1000 : Shape := ⟨2, ![1024, 1000]⟩
abbrev S1024 : Shape := ⟨1, ![1024]⟩
abbrev S1024x1 : Shape := ⟨2, ![1024, 1]⟩

abbrev nBuf : Space → Nat
  | .hbm => 14
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S1000x512, .f32⟩
  | .hbm, ⟨2, _⟩ => ⟨S1x512, .f32⟩
  | .hbm, ⟨3, _⟩ => ⟨S512, .f32⟩
  | .hbm, ⟨4, _⟩ => ⟨S512, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1000x512, .f32⟩
  | .hbm, ⟨9, _⟩ => ⟨S_, .f32⟩
  | .hbm, ⟨10, _⟩ => ⟨S1000, .f32⟩
  | .hbm, ⟨11, _⟩ => ⟨S1x1, .f32⟩
  | .hbm, ⟨12, _⟩ => ⟨S1x1000, .f32⟩
  | .hbm, ⟨13, _⟩ => ⟨S8192x1000, .f32⟩
  | .local _ .vmem, ⟨0, _⟩ => ⟨S1024x512, .f32⟩
  | .local _ .vmem, ⟨1, _⟩ => ⟨S1024x512, .f32⟩
  | .local _ .vmem, ⟨2, _⟩ => ⟨S1000x512, .f32⟩
  | .local _ .vmem, ⟨3, _⟩ => ⟨S1x1, .f32⟩
  | .local _ .vmem, ⟨4, _⟩ => ⟨S1x1000, .f32⟩
  | .local _ .vmem, ⟨5, _⟩ => ⟨S1024x1000, .f32⟩
  | .local _ .vmem, ⟨6, _⟩ => ⟨S1024x1000, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1000x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S1000x512_S1x512_0_0 : S1000x512.Slices ![0, 0] S1x512
  shapeCasts_S1x512_S512 : S1x512.ShapeCasts S512
  reducesTo_S512_S_d0 : S512.ReducesTo [0] S_
  h_S_ : 0 < S_.numel
  reducesTo_S1000x512_S1000_d1 : S1000x512.ReducesTo [1] S1000
  shapeCasts_S_S1x1 : S_.ShapeCasts S1x1
  shapeCasts_S1000_S1x1000 : S1000.ShapeCasts S1x1000
  inb_S1024x512_S1024x512_0_0 : ∀ a, (![0, 0] : Fin 2 → Nat) a + S1024x512.size a ≤ S1024x512.size a
  h_S1024x512 : 0 < S1024x512.numel
  inb_S1000x512_S1000x512_0_0 : ∀ a, (![0, 0] : Fin 2 → Nat) a + S1000x512.size a ≤ S1000x512.size a
  h_S1000x512 : 0 < S1000x512.numel
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1x1000_S1x1000_0_0 : ∀ a, (![0, 0] : Fin 2 → Nat) a + S1x1000.size a ≤ S1x1000.size a
  h_S1x1000 : 0 < S1x1000.numel
  shapeCasts_S1x1000_S1000 : S1x1000.ShapeCasts S1000
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x1000 : S1024x1.Broadcasts S1024x1000
  broadcasts_S1x1000_S1024x1000 : S1x1000.Broadcasts S1024x1000
  inb_S1024x1000_S1024x1000_0_0 : ∀ a, (![0, 0] : Fin 2 → Nat) a + S1024x1000.size a ≤ S1024x1000.size a
  h_S1024x1000 : 0 < S1024x1000.numel
  dot_S1024x512_S1000x512_S1024x1000_1_1_0_0_n_n_wf : DotDims.WF S1024x512 S1000x512 S1024x1000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1000x512.size a ≤ S1000x512.size a
  hwx0_1 : ∀ i : grid0.Coords, EltTy.bits .f32 = 32 ∨ (Rect.block (s := S1000x512) S1000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1000.size a ≤ S1x1000.size a
  hwx0_3 : ∀ i : grid0.Coords, EltTy.bits .f32 = 32 ∨ (Rect.block (s := S1x1000) S1x1000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1000.size a ≤ S8192x1000.size a
  hwx0_4 : ∀ i : grid0.Coords, EltTy.bits .f32 = 32 ∨ (Rect.block (s := S8192x1000) S1024x1000.size (cc0_transform_4 i) (hinb0_4 i)).WholeWords (EltTy.packing .f32)

variable [Facts₀]

def dot_S1024x512_S1000x512_S1024x1000_1_1_0_0_n_n : DotDims S1024x512 S1000x512 S1024x1000 where
  lhsContracting := [1]
  rhsContracting := [1]
  lhsNonContracting := [0]
  rhsNonContracting := [0]
  lhsBatch := []
  rhsBatch := []
  wf := dot_S1024x512_S1000x512_S1024x1000_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x1000.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1024x1000.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x512 : Shape := ⟨2, ![8192, 512]⟩
abbrev S1000x512 : Shape := ⟨2, ![1000, 512]⟩
abbrev S1x512 : Shape := ⟨2, ![1, 512]⟩
abbrev S512 : Shape := ⟨1, ![512]⟩
abbrev S_ : Shape := ⟨0, ![]⟩
abbrev S8192 : Shape := ⟨1, ![8192]⟩
abbrev S8192x1 : Shape := ⟨2, ![8192, 1]⟩
abbrev S1000 : Shape := ⟨1, ![1000]⟩
abbrev S8192x1000 : Shape := ⟨2, ![8192, 1000]⟩
abbrev S1x1000 : Shape := ⟨2, ![1, 1000]⟩

abbrev nBuf : Space → Nat
  | .hbm => 37
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S1000x512, .f32⟩
  | .hbm, ⟨2, _⟩ => ⟨S1x512, .f32⟩
  | .hbm, ⟨3, _⟩ => ⟨S512, .f32⟩
  | .hbm, ⟨4, _⟩ => ⟨S512, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8192x512, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S1000x512, .f32⟩
  | .hbm, ⟨25, _⟩ => ⟨S_, .f32⟩
  | .hbm, ⟨26, _⟩ => ⟨S1000, .f32⟩
  | .hbm, ⟨27, _⟩ => ⟨S8192x1000, .f32⟩
  | .hbm, ⟨28, _⟩ => ⟨S_, .f32⟩
  | .hbm, ⟨29, _⟩ => ⟨S8192x1000, .f32⟩
  | .hbm, ⟨30, _⟩ => ⟨S8192x1000, .f32⟩
  | .hbm, ⟨31, _⟩ => ⟨S8192x1000, .f32⟩
  | .hbm, ⟨32, _⟩ => ⟨S8192x1000, .f32⟩
  | .hbm, ⟨33, _⟩ => ⟨S1x1000, .f32⟩
  | .hbm, ⟨34, _⟩ => ⟨S8192x1000, .f32⟩
  | .hbm, ⟨35, _⟩ => ⟨S8192x1000, .f32⟩
  | .hbm, ⟨36, _⟩ => ⟨S8192x1000, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_cst : Ref sig .tc := ⟨.hbm, 9, rfl⟩
abbrev main_call0_v1 : Ref sig .tc := ⟨.hbm, 10, rfl⟩
abbrev main_call0_v2 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]

class Facts₀ : Prop where
  slices_S1000x512_S1x512_0_0 : S1000x512.Slices ![0, 0] S1x512
  shapeCasts_S1x512_S512 : S1x512.ShapeCasts S512
  reducesTo_S512_S_d0 : S512.ReducesTo [0] S_
  h_S_ : 0 < S_.numel
  reducesTo_S8192x512_S8192_d1 : S8192x512.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  bcast_S_S8192x512 : S_.BroadcastsInDim S8192x512 (![] : Fin 0 → Fin S8192x512.rank)
  reducesTo_S1000x512_S1000_d1 : S1000x512.ReducesTo [1] S1000
  bcast_S_S8192x1000 : S_.BroadcastsInDim S8192x1000 (![] : Fin 0 → Fin S8192x1000.rank)
  bcast_S8192x1_S8192x1000_0_1 : S8192x1.BroadcastsInDim S8192x1000 (![0, 1] : Fin 2 → Fin S8192x1000.rank)
  bcast_S1000_S1x1000_1 : S1000.BroadcastsInDim S1x1000 (![1] : Fin 1 → Fin S1x1000.rank)
  bcast_S1x1000_S8192x1000_0_1 : S1x1000.BroadcastsInDim S8192x1000 (![0, 1] : Fin 2 → Fin S8192x1000.rank)
  dot_S8192x512_S1000x512_S8192x1000_1_1_0_0_n_n_wf : DotDims.WF S8192x512 S1000x512 S8192x1000 [1] [1] [0] [0] [] []

variable [Facts₀]

def dot_S8192x512_S1000x512_S8192x1000_1_1_0_0_n_n : DotDims S8192x512 S1000x512 S8192x1000 where
  lhsContracting := [1]
  rhsContracting := [1]
  lhsNonContracting := [0]
  rhsNonContracting := [0]
  lhsBatch := []
  rhsBatch := []
  wf := dot_S8192x512_S1000x512_S8192x1000_1_1_0_0_n_n_wf

class Facts : Prop extends Facts₀ where

variable [Facts]
-- ==== Proof.Spec.lean ====
/-
  The mathematics of the two programs, stated once over the extended reals.

  Every row x_p of the input is divided by its Euclidean norm plus a small positive constant ε and rescaled by a
  number s (the norm of the first class mean); the result for row p and class c is the negated squared distance
  written out as  -( ‖y_p‖² - 2·⟨y_p, w_c⟩ + q_c ),  with y_p the rescaled row, w_c the c-th mean and q_c = ‖w_c‖².

  The two programs differ in two places only.  One computes y = x · (s / n), the other y = (x / n) · s, where
  n = √(Σ x²) + ε.  A square root on the extended reals is either -∞ (of a negative argument) or nonnegative, so
  n is never zero; then both quotients are products with n⁻¹ and the two forms agree by commutativity and
  associativity of the product alone — no finiteness is needed.  The other difference is the final sign:
  0 - t against -t, equal on all extended reals.
-/
import Idealize.ShloMosaic.PureOps.Ideal.Laws
import Idealize.ShloMosaic.Lib.ValueIdx

noncomputable section

namespace Cert.Mmlda

open Idealize.ShloMosaic Idealize.ShloMosaic.ValueIdx

/-- The small constant added to a row's norm: the f32 word 0x2EDBE6FF (about 10⁻¹⁰). -/
def eps : EReal := Ideal.ofBits .f32 0x2EDBE6FF#32

/-- The factor of the cross term: the f32 word 0x40000000 (the number 2; its value is never used). -/
def two : EReal := Ideal.ofBits .f32 0x40000000#32

/-- The word 0x2EDBE6FF read as an f32 is (2²³ + 6022911) · 2^(93 - 127 - 23) = 14411519 · 2⁻⁵⁷. -/
theorem eps_eq_coe : eps = (((14411519 : ℝ) * (2 : ℝ) ^ (-57 : ℤ) : ℝ) : EReal) := by
  simp [eps, Ideal.ofBits, Ideal.ieee, -EReal.coe_mul]

/-- ε is a positive real. -/
theorem eps_pos_real : ∃ r : ℝ, 0 < r ∧ eps = (r : EReal) := ⟨_, by positivity, eps_eq_coe⟩

/-- A square root plus ε is never zero: the root is -∞, +∞ or a nonnegative real. -/
theorem sqrt_add_eps_ne_zero (y : EReal) : Ideal.sqrt y + eps ≠ 0 := by
  obtain ⟨r, hr, e⟩ := eps_pos_real
  rw [e]
  induction y using EReal.rec with
  | bot => rw [Ideal.sqrt_bot, EReal.bot_add]; exact EReal.bot_ne_zero
  | top => rw [Ideal.sqrt_top, EReal.top_add_coe]; exact EReal.top_ne_zero
  | coe t =>
    rw [Ideal.sqrt_coe]
    split
    · rw [EReal.bot_add]; exact EReal.bot_ne_zero
    · rw [← EReal.coe_add]
      have h : 0 < Real.sqrt t + r := add_pos_of_nonneg_of_pos (Real.sqrt_nonneg t) hr
      exact fun h0 => h.ne' (EReal.coe_eq_zero.1 h0)

/-- Off a zero divisor, x · (s / n) = (x / n) · s on the extended reals: both are x · n⁻¹ · s. -/
theorem mul_div_eq_div_mul (x s n : EReal) (hn : n ≠ 0) : x * Ideal.div s n = Ideal.div x n * s := by
  unfold Ideal.div
  rw [if_neg hn, if_neg hn, mul_comm s, mul_assoc]

/-- 0 - t = -t on the extended reals. -/
theorem zero_sub_eq_neg (t : EReal) : 0 - t = -t := by
  rw [sub_eq_add_neg, zero_add]

variable {a b K : ℕ}

/-- Row p's Euclidean norm plus ε. -/
def den (x : (⟨2, ![a, K]⟩ : Shape).Idx → EReal) (p : Fin a) : EReal :=
  Ideal.sqrt (∑ k : Fin K, x (ix2 p k) * x (ix2 p k)) + eps

/-- The rescaled row, the quotient taken first: (x / n) · s. -/
def rowQ (x : (⟨2, ![a, K]⟩ : Shape).Idx → EReal) (s : EReal) (p : Fin a) (k : Fin K) : EReal :=
  Ideal.div (x (ix2 p k)) (den x p) * s

/-- The rescaled row, the scale divided first: x · (s / n). -/
def rowS (x : (⟨2, ![a, K]⟩ : Shape).Idx → EReal) (s : EReal) (p : Fin a) (k : Fin K) : EReal :=
  x (ix2 p k) * Ideal.div s (den x p)

/-- The two rescalings agree. -/
theorem rowS_eq_rowQ (x : (⟨2, ![a, K]⟩ : Shape).Idx → EReal) (s : EReal) (p : Fin a) (k : Fin K) :
    rowS x s p k = rowQ x s p k :=
  mul_div_eq_div_mul _ _ _ (sqrt_add_eps_ne_zero _)

/-- The negated squared distance of the rescaled row p to mean c, the sign by negation. -/
def logitQ (x : (⟨2, ![a, K]⟩ : Shape).Idx → EReal) (w : (⟨2, ![b, K]⟩ : Shape).Idx → EReal) (s : EReal) (q : Fin b → EReal)
    (p : Fin a) (c : Fin b) : EReal :=
  -(((∑ k : Fin K, rowQ x s p k * rowQ x s p k) - two * ∑ k : Fin K, rowQ x s p k * w (ix2 c k)) + q c)

/-- The same over the other rescaling, the sign by subtraction from zero. -/
def logitS (x : (⟨2, ![a, K]⟩ : Shape).Idx → EReal) (w : (⟨2, ![b, K]⟩ : Shape).Idx → EReal) (s : EReal) (q : Fin b → EReal)
    (p : Fin a) (c : Fin b) : EReal :=
  0 - (((∑ k : Fin K, rowS x s p k * rowS x s p k) - two * ∑ k : Fin K, rowS x s p k * w (ix2 c k)) + q c)

/-- The two forms of an entry agree. -/
theorem logitS_eq_logitQ (x : (⟨2, ![a, K]⟩ : Shape).Idx → EReal) (w : (⟨2, ![b, K]⟩ : Shape).Idx → EReal) (s : EReal)
    (q : Fin b → EReal) (p : Fin a) (c : Fin b) : logitS x w s q p c = logitQ x w s q p c := by
  unfold logitS logitQ
  simp only [rowS_eq_rowQ]
  exact zero_sub_eq_neg _

/-- An entry depends only on row p of x, on row c of w, on the scale and on q_c. -/
theorem logitQ_congr {A B : ℕ} (x : (⟨2, ![a, K]⟩ : Shape).Idx → EReal) (X : (⟨2, ![A, K]⟩ : Shape).Idx → EReal)
    (w : (⟨2, ![b, K]⟩ : Shape).Idx → EReal) (w' : (⟨2, ![B, K]⟩ : Shape).Idx → EReal) (s s' : EReal) (q : Fin b → EReal) (q' : Fin B → EReal)
    (p : Fin a) (P : Fin A) (c : Fin b) (C : Fin B)
    (hx : ∀ k, x (ix2 p k) = X (ix2 P k)) (hw : ∀ k, w (ix2 c k) = w' (ix2 C k)) (hs : s = s') (hq : q c = q' C) :
    logitQ x w s q p c = logitQ X w' s' q' P C := by
  subst hs
  unfold logitQ rowQ den
  simp only [hx, hw, hq]

/-- The whole result: entry (p, c) of the [a, b] array. -/
def G (x : (⟨2, ![a, K]⟩ : Shape).Idx → EReal) (w : (⟨2, ![b, K]⟩ : Shape).Idx → EReal) (s : EReal) (q : Fin b → EReal) :
    (⟨2, ![a, b]⟩ : Shape).Idx → EReal :=
  fun i => logitQ x w s q (i 0) (i 1)

theorem G_apply (x : (⟨2, ![a, K]⟩ : Shape).Idx → EReal) (w : (⟨2, ![b, K]⟩ : Shape).Idx → EReal) (s : EReal) (q : Fin b → EReal)
    (p : Fin a) (c : Fin b) : G x w s q (ix2 p c) = logitQ x w s q p c := rfl

end Cert.Mmlda

end
-- ==== Proof.LibLayout.lean ====
/-
  Three small readings of layout operations at an index given by coordinates, for the column forms a row reduction
  with kept dimensions produces: a vector of `a` entries cast to one column `[a, 1]`, a column broadcast along
  the rows `[a, 1] → [a, b]`, and the index a row sum inserts on the reduced axis.
-/
import Idealize.ShloMosaic.Lib.ValueLayout
import Idealize.ShloMosaic.PureOps.Ideal.Laws

namespace Cert.Attn.Layout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a sum along the rows inserts: row `p` with column `k` put back is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A sum along the rows of an `[a, b]` array of extended reals, read at row `p`: the sum of the row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = FKind.add.neutral .f32 hφ) (p : Fin a) :
    multiReduction .add [1] (⟨1, ![a]⟩ : Shape) src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_row h p k)

end Cert.Attn.Layout
-- ==== Proof.LibContract.lean ====
/-
  A contraction over ONE axis read at an output index, at the ideal values: whatever the operands' ranks and whichever
  axes are batched, kept or contracted, the product's entry is the sum over the contracted coordinate `k` of the left
  operand at an index `L k` times the right operand at an index `R k`, once the dimension numbers' two index maps are
  known at each `k` (`hL`, `hR`: for a literal record, coordinate by coordinate, by evaluation). Stated for the
  raw sum (`sum_contr`), for a kernel's product into the zero splat (`matmul_zero`) and for the host's (`dotGeneral`).
-/
import Idealize.ShloMosaic.Lib.ValueIdx
import Idealize.ShloMosaic.PureOps.Ideal.Laws

namespace Contract1

open Idealize.ShloMosaic Idealize.ShloMosaic.ValueIdx

variable {sl sr so : Shape} {φ₁ φ₂ : FTy}

/-- The contraction's sum re-indexed by the one contracted coordinate. -/
theorem sum_contr (D : DotDims sl sr so) (K : ℕ) (hr : D.contr.rank = 1) (hs : D.contr.size ⟨0, by omega⟩ = K)
    (x : sl.Idx → EReal) (w : sr.Idx → EReal) (j : so.Idx) (L : Fin K → sl.Idx) (R : Fin K → sr.Idx)
    (hL : ∀ (k : Fin K) (q : D.contr.Idx), (q ⟨0, by omega⟩).val = k.val → D.lhsIdx j q = L k)
    (hR : ∀ (k : Fin K) (q : D.contr.Idx), (q ⟨0, by omega⟩).val = k.val → D.rhsIdx j q = R k) :
    ∑ q : D.contr.Idx, x (D.lhsIdx j q) * w (D.rhsIdx j q) = ∑ k : Fin K, x (L k) * w (R k) := by
  rw [← Equiv.sum_comp (contrEquiv1 D K hr hs).symm]
  refine Finset.sum_congr rfl fun k _ => ?_
  have hk := contrEquiv1_symm_val D K hr hs k
  rw [hL k _ hk, hR k _ hk]

/-- A kernel's product into the zero splat at an output index. -/
theorem matmul_zero (D : DotDims sl sr so) (K : ℕ) (hr : D.contr.rank = 1) (hs : D.contr.size ⟨0, by omega⟩ = K)
    (prec : Option ContractPrecision) (x : FVec Ideal sl φ₁) (w : FVec Ideal sr φ₂) (j : so.Idx)
    (L : Fin K → sl.Idx) (R : Fin K → sr.Idx)
    (hL : ∀ (k : Fin K) (q : D.contr.Idx), (q ⟨0, by omega⟩).val = k.val → D.lhsIdx j q = L k)
    (hR : ∀ (k : Fin K) (q : D.contr.Idx), (q ⟨0, by omega⟩).val = k.val → D.rhsIdx j q = R k) :
    matmul D prec x w (constant (F := Ideal) so .f32 0x00000000#32) j = ∑ k : Fin K, x (L k) * w (R k) :=
  (Ideal.matmul_constant_zero_apply D prec x w j).trans (sum_contr D K hr hs x w j L R hL hR)

/-- The host's product at an output index: the same sum. -/
theorem dotGeneral (D : DotDims sl sr so) (K : ℕ) (hr : D.contr.rank = 1) (hs : D.contr.size ⟨0, by omega⟩ = K)
    (prec : Option ContractPrecision) (x : FVec Ideal sl φ₁) (w : FVec Ideal sr φ₂) (j : so.Idx)
    (L : Fin K → sl.Idx) (R : Fin K → sr.Idx)
    (hL : ∀ (k : Fin K) (q : D.contr.Idx), (q ⟨0, by omega⟩).val = k.val → D.lhsIdx j q = L k)
    (hR : ∀ (k : Fin K) (q : D.contr.Idx), (q ⟨0, by omega⟩).val = k.val → D.rhsIdx j q = R k) :
    Host.dotGeneral D prec x w j = ∑ k : Fin K, x (L k) * w (R k) :=
  (Ideal.dotGeneral_apply D prec .single x w j).trans (sum_contr D K hr hs x w j L R hL hR)

end Contract1
-- ==== Proof.KernelPay.lean ====
/-
  The kernel body's stored value at an entry.  For a block of 1024 rows x (block rows [1024, 512]), all the means
  w ([1000, 512]), the scale s (a [1, 1] block) and the means' squared norms q (a [1, 1000] block), the body stores at
  row p and class c the number  0 - ((Σ_k y_pk² - 2 · Σ_k y_pk · w_ck) + q_c),  where y_pk = x_pk · (s / (√(Σ_k x_pk²) + ε)).
  The row sums are lane reductions, the cross term a matrix product into the zero accumulator contracting the two
  operands' columns, and the per-row factor and q reach the [1024, ·] arrays through casts and broadcasts.
-/
import proofs.«166691_j82858509075021_2_alg».proof.Proof.Gen.KernelIdeal.Skeleton
import proofs.«166691_j82858509075021_2_alg».proof.Proof.Spec
import proofs.«166691_j82858509075021_2_alg».proof.Proof.LibLayout
import proofs.«166691_j82858509075021_2_alg».proof.Proof.LibContract
import Idealize.ShloMosaic.Lib.ValueLayout

noncomputable section

namespace Cert.Mmlda.Body

open Cert.KernelIdeal Cert.KernelIdeal.Gen Idealize.ShloMosaic Idealize.ShloMosaic.ValueIdx Cert.Attn.Layout

variable (v0 : FVec Ideal S1024x512 .f32) (v1 : FVec Ideal S1000x512 .f32) (v2 : FVec Ideal S1x1 .f32) (v4 : FVec Ideal S1x1000 .f32)

/-- The per-row factor s / (‖x_p‖ + ε) as the body computes it: a column. -/
def rowFactor : FVec Ideal S1024x1 .f32 :=
  divf (broadcast S1024x1 (extractAt ![0, 0] v2 inpos_S1x1_p0_0))
    (addf (sqrt (shapeCast S1024x1 (multiReduction .add [1] S1024 (mulf v0 v0) 0x00000000#32 reduces_S1024x512_S1024 (.inl rfl) rfl) shapeCasts_S1024_S1024x1))
      (broadcast S1024x1 (Scalar.ofBits .f32 0x2EDBE6FF#32)))

/-- The rescaled block: every row times its factor. -/
def scaled : FVec Ideal S1024x512 .f32 :=
  mulf v0 (broadcastTo S1024x512 (rowFactor v0 v2) broadcasts_S1024x1_S1024x512)

/-- The stored value over the rescaled block. -/
theorem pay_eq : k0_pay1 (F := Ideal) v0 v1 v2 v4 =
    subf (broadcast S1024x1000 (Scalar.ofBits .f32 0x00000000#32))
      (addf (subf (broadcastTo S1024x1000 (shapeCast S1024x1 (multiReduction .add [1] S1024 (mulf (scaled v0 v2) (scaled v0 v2)) 0x00000000#32 reduces_S1024x512_S1024 (.inl rfl) rfl) shapeCasts_S1024_S1024x1) broadcasts_S1024x1_S1024x1000)
          (mulf (broadcast S1024x1000 (Scalar.ofBits .f32 0x40000000#32)) (matmul dot_S1024x512_S1000x512_S1024x1000_1_1_0_0_n_n (some .fp32) (scaled v0 v2) v1 (constant S1024x1000 .f32 0x00000000#32))))
        (broadcastTo S1024x1000 (shapeCast S1x1000 (shapeCast S1000 v4 shapeCasts_S1x1000_S1000) shapeCasts_S1000_S1x1000) broadcasts_S1x1000_S1024x1000)) := rfl

/-- The factor of row p: the scale over the row's norm plus ε. -/
theorem rowFactor_apply (p : Fin 1024) :
    rowFactor v0 v2 (ix2 p (0 : Fin 1)) = Ideal.div (v2 (ix2 (0 : Fin 1) (0 : Fin 1))) (Cert.Mmlda.den (a := 1024) (K := 512) v0 p) := by
  have hs : shapeCast S1024x1 (multiReduction .add [1] S1024 (mulf v0 v0) 0x00000000#32 reduces_S1024x512_S1024 (.inl rfl) rfl) shapeCasts_S1024_S1024x1 (ix2 p (0 : Fin 1))
      = ∑ k : Fin 512, v0 (ix2 p k) * v0 (ix2 p k) :=
    (shapeCast_a_a1_apply _ shapeCasts_S1024_S1024x1 p 0).trans
      ((rowSum_apply (mulf v0 v0) reduces_S1024x512_S1024 (.inl rfl) rfl p).trans (Finset.sum_congr rfl fun k _ => rfl))
  have he : extractAt ![0, 0] v2 inpos_S1x1_p0_0 = v2 (ix2 (0 : Fin 1) (0 : Fin 1)) :=
    congrArg v2 (funext fun a => Fin.ext (by match a with | ⟨0, _⟩ => rfl | ⟨1, _⟩ => rfl))
  show Ideal.div (extractAt ![0, 0] v2 inpos_S1x1_p0_0) (Ideal.sqrt (shapeCast S1024x1 (multiReduction .add [1] S1024 (mulf v0 v0) 0x00000000#32 reduces_S1024x512_S1024 (.inl rfl) rfl) shapeCasts_S1024_S1024x1 (ix2 p (0 : Fin 1))) + Ideal.ofBits .f32 0x2EDBE6FF#32) = _
  rw [hs, he]
  rfl

/-- The rescaled block at (p, k). -/
theorem scaled_apply (p : Fin 1024) (k : Fin 512) :
    scaled v0 v2 (ix2 p k) = Cert.Mmlda.rowS (a := 1024) (K := 512) v0 (v2 (ix2 (0 : Fin 1) (0 : Fin 1))) p k := by
  show v0 (ix2 p k) * broadcastTo S1024x512 (rowFactor v0 v2) broadcasts_S1024x1_S1024x512 (ix2 p k) = _
  rw [broadcastTo_a1_ab_apply (rowFactor v0 v2) broadcasts_S1024x1_S1024x512 p k, rowFactor_apply]
  rfl

/-- The squared norm of the rescaled row p, broadcast along the classes. -/
theorem sqsum_apply (p : Fin 1024) (c : Fin 1000) :
    broadcastTo S1024x1000 (shapeCast S1024x1 (multiReduction .add [1] S1024 (mulf (scaled v0 v2) (scaled v0 v2)) 0x00000000#32 reduces_S1024x512_S1024 (.inl rfl) rfl) shapeCasts_S1024_S1024x1) broadcasts_S1024x1_S1024x1000 (ix2 p c)
      = ∑ k : Fin 512, Cert.Mmlda.rowS (a := 1024) (K := 512) v0 (v2 (ix2 (0 : Fin 1) (0 : Fin 1))) p k
          * Cert.Mmlda.rowS (a := 1024) (K := 512) v0 (v2 (ix2 (0 : Fin 1) (0 : Fin 1))) p k := by
  refine (broadcastTo_a1_ab_apply _ broadcasts_S1024x1_S1024x1000 p c).trans ?_
  refine (shapeCast_a_a1_apply _ shapeCasts_S1024_S1024x1 p 0).trans ?_
  refine (rowSum_apply (mulf (scaled v0 v2) (scaled v0 v2)) reduces_S1024x512_S1024 (.inl rfl) rfl p).trans ?_
  refine Finset.sum_congr rfl fun k _ => ?_
  show scaled v0 v2 (ix2 p k) * scaled v0 v2 (ix2 p k) = _
  rw [scaled_apply]

/-! The product's index maps: row p of the left operand and row c of the right one, both at column k. -/

theorem lhs0 (i : S1024x1000.Idx) (q : dot_S1024x512_S1000x512_S1024x1000_1_1_0_0_n_n.contr.Idx) : (dot_S1024x512_S1000x512_S1024x1000_1_1_0_0_n_n.lhsIdx i q 0).val = (i 0).val := by
  unfold DotDims.lhsIdx
  rw [dif_neg (show ¬(0 : Fin S1024x512.rank) ∈ dot_S1024x512_S1000x512_S1024x1000_1_1_0_0_n_n.lhsBatch by decide), dif_pos (show (0 : Fin S1024x512.rank) ∈ dot_S1024x512_S1000x512_S1024x1000_1_1_0_0_n_n.lhsNonContracting by decide)]
  rfl

theorem lhs1 (i : S1024x1000.Idx) (q : dot_S1024x512_S1000x512_S1024x1000_1_1_0_0_n_n.contr.Idx) : (dot_S1024x512_S1000x512_S1024x1000_1_1_0_0_n_n.lhsIdx i q 1).val = (q ⟨0, by decide⟩).val :=
  dot_S1024x512_S1000x512_S1024x1000_1_1_0_0_n_n.lhsIdx_val_of_single rfl i q

theorem rhs0 (i : S1024x1000.Idx) (q : dot_S1024x512_S1000x512_S1024x1000_1_1_0_0_n_n.contr.Idx) : (dot_S1024x512_S1000x512_S1024x1000_1_1_0_0_n_n.rhsIdx i q 0).val = (i 1).val := by
  unfold DotDims.rhsIdx
  rw [dif_neg (show ¬(0 : Fin S1000x512.rank) ∈ dot_S1024x512_S1000x512_S1024x1000_1_1_0_0_n_n.rhsBatch by decide), dif_pos (show (0 : Fin S1000x512.rank) ∈ dot_S1024x512_S1000x512_S1024x1000_1_1_0_0_n_n.rhsNonContracting by decide)]
  rfl

theorem rhs1 (i : S1024x1000.Idx) (q : dot_S1024x512_S1000x512_S1024x1000_1_1_0_0_n_n.contr.Idx) : (dot_S1024x512_S1000x512_S1024x1000_1_1_0_0_n_n.rhsIdx i q 1).val = (q ⟨0, by decide⟩).val :=
  dot_S1024x512_S1000x512_S1024x1000_1_1_0_0_n_n.rhsIdx_val_of_single rfl i q

/-- The cross term at (p, c): the rescaled row p against mean c. -/
theorem cross_apply (p : Fin 1024) (c : Fin 1000) :
    matmul dot_S1024x512_S1000x512_S1024x1000_1_1_0_0_n_n (some .fp32) (scaled v0 v2) v1 (constant S1024x1000 .f32 0x00000000#32) (ix2 p c)
      = ∑ k : Fin 512, Cert.Mmlda.rowS (a := 1024) (K := 512) v0 (v2 (ix2 (0 : Fin 1) (0 : Fin 1))) p k * v1 (ix2 c k) := by
  refine (Contract1.matmul_zero dot_S1024x512_S1000x512_S1024x1000_1_1_0_0_n_n 512 rfl rfl (some .fp32) (scaled v0 v2) v1 (ix2 p c)
    (fun k => ix2 p k) (fun k => ix2 c k) (fun k q hk => ?_) (fun k q hk => ?_)).trans ?_
  · exact funext fun a => Fin.ext (by
      match a with
      | ⟨0, _⟩ => exact lhs0 _ _
      | ⟨1, _⟩ => exact (lhs1 _ _).trans hk)
  · exact funext fun a => Fin.ext (by
      match a with
      | ⟨0, _⟩ => exact rhs0 _ _
      | ⟨1, _⟩ => exact (rhs1 _ _).trans hk)
  · exact Finset.sum_congr rfl fun k _ => by rw [scaled_apply]

/-- The means' squared norms, a [1, 1000] block cast to a vector and back and broadcast along the rows. -/
theorem msq_apply (p : Fin 1024) (c : Fin 1000) :
    broadcastTo S1024x1000 (shapeCast S1x1000 (shapeCast S1000 v4 shapeCasts_S1x1000_S1000) shapeCasts_S1000_S1x1000) broadcasts_S1x1000_S1024x1000 (ix2 p c)
      = v4 (ix2 (0 : Fin 1) c) := by
  refine (broadcastTo_1b_ab_apply _ broadcasts_S1x1000_S1024x1000 p c).trans ?_
  refine (shapeCast_a_1a_apply _ shapeCasts_S1000_S1x1000 0 c).trans ?_
  exact shapeCast_1a_a_apply v4 shapeCasts_S1x1000_S1000 c

/-- THE BODY'S STORED VALUE at (p, c). -/
theorem pay_apply (p : Fin 1024) (c : Fin 1000) :
    k0_pay1 (F := Ideal) v0 v1 v2 v4 (ix2 p c)
      = Cert.Mmlda.logitS (a := 1024) (b := 1000) (K := 512) v0 v1 (v2 (ix2 (0 : Fin 1) (0 : Fin 1))) (fun c => v4 (ix2 (0 : Fin 1) c)) p c := by
  rw [pay_eq]
  simp only [subf_apply, addf_apply, mulf_apply, broadcast_apply]
  rw [sqsum_apply, cross_apply, msq_apply]
  show Ideal.ofBits .f32 0x00000000#32 - _ = _
  rw [Ideal.ofBits_zero_f32]
  rfl

/-- An entry of the stored block is the specification's entry, at any index (row P, class C), of any arrays that agree
    with the blocks on the row, the class, the scale and the squared norm concerned. -/
theorem block_entry {A B : ℕ} (X : (⟨2, ![A, 512]⟩ : Shape).Idx → EReal) (W : (⟨2, ![B, 512]⟩ : Shape).Idx → EReal) (s : EReal)
    (Q : Fin B → EReal) (j : S1024x1000.Idx) (i : (⟨2, ![A, B]⟩ : Shape).Idx)
    (h0 : ∀ k : Fin 512, v0 (ix2 (j 0) k) = X (ix2 (i 0) k)) (h1 : ∀ k : Fin 512, v1 (ix2 (j 1) k) = W (ix2 (i 1) k))
    (h2 : v2 (ix2 (0 : Fin 1) (0 : Fin 1)) = s) (h3 : v4 (ix2 (0 : Fin 1) (j 1)) = Q (i 1)) :
    k0_pay1 (F := Ideal) v0 v1 v2 v4 j = Cert.Mmlda.G (a := A) (b := B) (K := 512) X W s Q i := by
  refine (congrArg (k0_pay1 (F := Ideal) v0 v1 v2 v4) (eq_ix2 j)).trans ?_
  refine (pay_apply v0 v1 v2 v4 (j 0) (j 1)).trans ?_
  refine (Cert.Mmlda.logitS_eq_logitQ (a := 1024) (b := 1000) (K := 512) v0 v1 _ _ (j 0) (j 1)).trans ?_
  exact Cert.Mmlda.logitQ_congr (a := 1024) (b := 1000) (K := 512) v0 X v1 W _ s _ Q (j 0) (i 0) (j 1) (i 1) h0 h1 h2 h3

end Cert.Mmlda.Body

end
-- ==== Proof.KernelValue.lean ====
/-
  From the blocks to the array.  The grid has 8 points; point t reads rows 1024·t … 1024·t + 1023 of x, all of the
  means, the host-computed scale and squared norms, and writes rows 1024·t … 1024·t + 1023 of the result.  What a
  point writes is the specification's array read through its block (an entry of the result depends on one row of x
  only), and the 8 blocks cover the array: the result array ends holding the specification's array of the arguments,
  with the scale and the squared norms as the host operations before the launch computed them from the means.
-/
import proofs.«166691_j82858509075021_2_alg».proof.Proof.Gen.KernelIdeal.Value
import proofs.«166691_j82858509075021_2_alg».proof.Proof.KernelPay
import Idealize.ShloMosaic.Lib.Pipeline.Value
import Idealize.ShloMosaic.Lib.StableHlo.Run

noncomputable section

namespace Cert.Mmlda.Kernel

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The two windows the host fills before the launch -/

/-- The scale as the host computes it from the means: the norm of the first mean, as a [1, 1] array. -/
def hostScale (w : FVec Ideal S1000x512 .f32) : FVec Ideal S1x1 .f32 :=
  shapeCast S1x1 (Host.sqrt (Host.reduceAdd
    (mulf (shapeCast S512 (extractStridedSlice S1x512 ![0, 0] w slices_S1000x512_S1x512_0_0) shapeCasts_S1x512_S512)
      (shapeCast S512 (extractStridedSlice S1x512 ![0, 0] w slices_S1000x512_S1x512_0_0) shapeCasts_S1x512_S512))
    (constant (F := Ideal) S_ .f32 0x00000000#32) reducesTo_S512_S_d0 h_S_)) shapeCasts_S_S1x1

/-- The means' squared norms as the host computes them, as a [1, 1000] array. -/
def hostMeanSq (w : FVec Ideal S1000x512 .f32) : FVec Ideal S1x1000 .f32 :=
  shapeCast S1x1000 (Host.reduceAdd (mulf w w) (constant (F := Ideal) S_ .f32 0x00000000#32) reducesTo_S1000x512_S1000_d1 h_S_)
    shapeCasts_S1000_S1x1000

theorem V_main_v7 (c : Dev nD) :
    (V m c main_v7 : S1x1.Idx → EReal) = hostScale (m ((c : Thread nD τ).loc main_arg1)) := by
  dsimp only [V, hostOps0]; after_results; rfl

theorem V_main_v8 (c : Dev nD) :
    (V m c main_v8 : S1x1000.Idx → EReal) = hostMeanSq (m ((c : Thread nD τ).loc main_arg1)) := by
  dsimp only [V, hostOps0]; after_results; rfl

/-! ## The index maps, decided over the grid -/

theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## The input blocks as entries of the arrays -/

/-- Point t's block of x is rows 1024·t … of x. -/
theorem iblk0_apply (c : Dev nD) (t : Fin cfg0.N) (p : Fin 1024) (k : Fin 512) (P : Fin 8192) (hP : P.val = t.val * 1024 + p.val) :
    (iblk m c 0 t : S1024x512.Idx → EReal) (ix2 p k) = (V m c main_arg0 : S8192x512.Idx → EReal) (ix2 P k) := by
  obtain ⟨e0, e1, -⟩ := idx_facts t
  unfold iblk
  rw [View.read_apply]
  show (V m c main_arg0 : S8192x512.Idx → EReal) _ = (V m c main_arg0 : S8192x512.Idx → EReal) _
  refine congrArg (V m c main_arg0 : S8192x512.Idx → EReal) (funext fun a => Fin.ext ?_)
  match a with
  | ⟨0, _⟩ => show win0_0.index t (0 : Fin 2) * 1024 + 1 * p.val = P.val; rw [e0, hP]; omega
  | ⟨1, _⟩ => show win0_0.index t (1 : Fin 2) * 512 + 1 * k.val = k.val; rw [e1]; omega

/-- Every point's block of the means is the means. -/
theorem iblk1_apply (c : Dev nD) (t : Fin cfg0.N) (q : Fin 1000) (k : Fin 512) (Q : Fin 1000) (hQ : Q.val = q.val) :
    (iblk m c 1 t : S1000x512.Idx → EReal) (ix2 q k) = (V m c main_arg1 : S1000x512.Idx → EReal) (ix2 Q k) := by
  obtain ⟨-, -, e0, e1, -⟩ := idx_facts t
  unfold iblk
  rw [View.read_apply]
  show (V m c main_arg1 : S1000x512.Idx → EReal) _ = (V m c main_arg1 : S1000x512.Idx → EReal) _
  refine congrArg (V m c main_arg1 : S1000x512.Idx → EReal) (funext fun a => Fin.ext ?_)
  match a with
  | ⟨0, _⟩ => show win0_1.index t (0 : Fin 2) * 1000 + 1 * q.val = Q.val; rw [e0, hQ]; omega
  | ⟨1, _⟩ => show win0_1.index t (1 : Fin 2) * 512 + 1 * k.val = k.val; rw [e1]; omega

/-- Every point's block of the scale is the scale. -/
theorem iblk2_apply (c : Dev nD) (t : Fin cfg0.N) :
    (iblk m c 2 t : S1x1.Idx → EReal) (ix2 (0 : Fin 1) (0 : Fin 1)) = (V m c main_v7 : S1x1.Idx → EReal) (ix2 (0 : Fin 1) (0 : Fin 1)) := by
  obtain ⟨-, -, -, -, e0, e1, -⟩ := idx_facts t
  unfold iblk
  rw [View.read_apply]
  show (V m c main_v7 : S1x1.Idx → EReal) _ = (V m c main_v7 : S1x1.Idx → EReal) _
  refine congrArg (V m c main_v7 : S1x1.Idx → EReal) (funext fun a => Fin.ext ?_)
  match a with
  | ⟨0, _⟩ => show win0_2.index t (0 : Fin 2) * 1 + 1 * 0 = 0; rw [e0]
  | ⟨1, _⟩ => show win0_2.index t (1 : Fin 2) * 1 + 1 * 0 = 0; rw [e1]

/-- Every point's block of the squared norms is the squared norms. -/
theorem iblk3_apply (c : Dev nD) (t : Fin cfg0.N) (q : Fin 1000) (Q : Fin 1000) (hQ : Q.val = q.val) :
    (iblk m c 3 t : S1x1000.Idx → EReal) (ix2 (0 : Fin 1) q) = (V m c main_v8 : S1x1000.Idx → EReal) (ix2 (0 : Fin 1) Q) := by
  obtain ⟨-, -, -, -, -, -, e0, e1, -⟩ := idx_facts t
  unfold iblk
  rw [View.read_apply]
  show (V m c main_v8 : S1x1000.Idx → EReal) _ = (V m c main_v8 : S1x1000.Idx → EReal) _
  refine congrArg (V m c main_v8 : S1x1000.Idx → EReal) (funext fun a => Fin.ext ?_)
  match a with
  | ⟨0, _⟩ => show win0_3.index t (0 : Fin 2) * 1 + 1 * 0 = 0; rw [e0]
  | ⟨1, _⟩ => show win0_3.index t (1 : Fin 2) * 1000 + 1 * q.val = Q.val; rw [e1, hQ]; omega

/-! ## What a point writes back, the cover, the array -/

/-- The specification's array of the arrays as the launch finds them. -/
def GK (c : Dev nD) : S8192x1000.Idx → EReal :=
  Cert.Mmlda.G (a := 8192) (b := 1000) (K := 512) (V m c main_arg0 : S8192x512.Idx → EReal) (V m c main_arg1 : S1000x512.Idx → EReal)
    ((V m c main_v7 : S1x1.Idx → EReal) (ix2 (0 : Fin 1) (0 : Fin 1))) (fun q => (V m c main_v8 : S1x1000.Idx → EReal) (ix2 (0 : Fin 1) q))

/-- The coordinates of the array index that point t's block puts at its own index j: row 1024·t + j₀, class j₁. -/
theorem emb_row (t : Fin cfg0.N) (j : S1024x1000.Idx) :
    ((((cfg0.win 4).blk t).view.emb j : S8192x1000.Idx) 0).val = t.val * 1024 + (j 0).val := by
  obtain ⟨-, -, -, -, -, -, -, -, e0, -⟩ := idx_facts t
  show win0_4.index t (0 : Fin 2) * 1024 + 1 * (j 0).val = _
  rw [e0]; omega

theorem emb_col (t : Fin cfg0.N) (j : S1024x1000.Idx) :
    ((((cfg0.win 4).blk t).view.emb j : S8192x1000.Idx) 1).val = (j 1).val := by
  obtain ⟨-, -, -, -, -, -, -, -, -, e1⟩ := idx_facts t
  show win0_4.index t (1 : Fin 2) * 1000 + 1 * (j 1).val = _
  rw [e1]; omega

/-- WHAT POINT t WRITES BACK is block t of that array. -/
theorem flushed_eq (c : Dev nD) (t : Fin cfg0.N) :
    (dats m 0 c).flushed 4 t = ((cfg0.win 4).blk t).view.read (Elt Ideal) (GK m c) := by
  rw [flushed4]
  unfold out0_4
  rw [View.canon_unit_zero hz]
  simp only [View.ld_unit_zero (S := S1024x512) hz, View.ld_unit_zero (S := S1000x512) hz, View.ld_unit_zero (S := S1x1) hz,
    View.ld_unit_zero (S := S1x1000) hz]
  funext j
  show k0_pay1 (F := Ideal) (iblk m c 0 t) (iblk m c 1 t) (iblk m c 2 t) (iblk m c 3 t) j
    = GK m c (((cfg0.win 4).blk t).view.emb j)
  unfold GK
  exact Cert.Mmlda.Body.block_entry (iblk m c 0 t) (iblk m c 1 t) (iblk m c 2 t) (iblk m c 3 t)
    (V m c main_arg0 : S8192x512.Idx → EReal) (V m c main_arg1 : S1000x512.Idx → EReal)
    ((V m c main_v7 : S1x1.Idx → EReal) (ix2 (0 : Fin 1) (0 : Fin 1))) (fun q => (V m c main_v8 : S1x1000.Idx → EReal) (ix2 (0 : Fin 1) q))
    j (((cfg0.win 4).blk t).view.emb j)
    (fun k => iblk0_apply m c t (j 0) k _ (emb_row t j)) (fun k => iblk1_apply m c t (j 1) k _ (emb_col t j))
    (iblk2_apply m c t) (iblk3_apply m c t (j 1) _ (emb_col t j))

/-- An index of the array is in point t's block iff each coordinate is in the block's range on its axis. -/
theorem mem_blk (t : Fin cfg0.N) (i : S8192x1000.Idx) :
    i ∈ ((cfg0.win 4).blk t).view.set ↔ ∀ a : Fin 2, win0_4.index t a * S1024x1000.size a ≤ (i a).val ∧ (i a).val < win0_4.index t a * S1024x1000.size a + S1024x1000.size a := by
  show i ∈ ((View.whole main_v9).slice (win0_4.rect t)).set ↔ _
  rw [View.set_slice_whole, Rect.mem_set_unit]
  exact Iff.rfl

/-- Row r of the result lies in the block of point r / 1024. -/
theorem cover (i : S8192x1000.Idx) : ∃ t : Fin cfg0.N, (cfg0.win 4).flush t = true ∧ i ∈ ((cfg0.win 4).blk t).view.set := by
  have hi0 : (i 0).val < 8192 := (i 0).isLt
  have hi1 : (i 1).val < 1000 := (i 1).isLt
  obtain ⟨t, ht⟩ : ∃ t : Fin cfg0.N, t.val = (i 0).val / 1024 :=
    ⟨⟨(i 0).val / 1024, by rw [show cfg0.N = 8 from N_0]; omega⟩, rfl⟩
  obtain ⟨-, -, -, -, -, -, -, -, e0, e1⟩ := idx_facts t
  refine ⟨t, flush0_4 t, ?_⟩
  rw [mem_blk]
  intro a
  match a with
  | ⟨0, _⟩ =>
    show win0_4.index t (0 : Fin 2) * 1024 ≤ (i 0).val ∧ (i 0).val < win0_4.index t (0 : Fin 2) * 1024 + 1024
    rw [e0, ht]; omega
  | ⟨1, _⟩ =>
    show win0_4.index t (1 : Fin 2) * 1000 ≤ (i 1).val ∧ (i 1).val < win0_4.index t (1 : Fin 2) * 1000 + 1000
    rw [e1]; omega

/-- THE ARRAY after the run. -/
theorem final (c : Dev nD) : (dats m 0 c).arrAt 4 cfg0.N = GK m c :=
  (dats m 0 c).arrAt_eq_of_cover 4 (GK m c) (fun t _ => flushed_eq m c t) cover

/-! ## The run, read -/

/-- The result as a function of the two arguments. -/
def result (x : FVec Ideal S8192x512 .f32) (w : FVec Ideal S1000x512 .f32) : S8192x1000.Idx → EReal :=
  Cert.Mmlda.G (a := 8192) (b := 1000) (K := 512) x w (hostScale w (ix2 (0 : Fin 1) (0 : Fin 1))) (fun q => hostMeanSq w (ix2 (0 : Fin 1) q))

theorem GK_eq (c : Dev nD) : GK m c = result (m ((c : Thread nD τ).loc main_arg0)) (m ((c : Thread nD τ).loc main_arg1)) := by
  unfold GK result
  rw [V_main_v7, V_main_v8, V_main_arg0, V_main_arg1]

/-- The kernel's run: the result array at the specification's array of the arguments, the arguments unchanged. -/
theorem run : θ_run defs (onTc (τ := τ) (main (F := Ideal))) ⟨m, fun _ => 0, ρ⟩ fun r => ∀ c : Dev nD,
      r.2.mem ((c : Thread nD τ).loc main_v9) = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final m c).trans (GK_eq m c)), (h c).2⟩) (run_blocks m ρ)

end Cert.Mmlda.Kernel

end
-- ==== Proof.RefValue.lean ====
/-
  The reference program's result, read one operation at a time, is the specification's array: entry (p, c) is the
  negated squared distance of the rescaled row p (the quotient by the row's norm plus ε taken first, then the scale)
  to the c-th mean.  The scale s and the means' squared norms q are kept as the reference's own stages.
-/
import proofs.«166691_j82858509075021_2_alg».proof.Proof.Gen.ReferenceIdeal.Read
import proofs.«166691_j82858509075021_2_alg».proof.Proof.Spec

noncomputable section

namespace Cert.Mmlda.Ref

open Cert.ReferenceIdeal Cert.ReferenceIdeal.Read Idealize.ShloMosaic Idealize.ShloMosaic.ValueIdx

/-- The scale: the norm of the first mean, as the host computes it. -/
def scale (x1 : (⟨S1000x512, .f32⟩ : BufTy).Contents (Elt Ideal)) : EReal := val_main_v4 (F := Ideal) x1 ix0

/-- The squared norm of mean c, as the host computes it. -/
def meanSq (x1 : (⟨S1000x512, .f32⟩ : BufTy).Contents (Elt Ideal)) (c : Fin 1000) : EReal :=
  val_main_v16 (F := Ideal) x1 (ix1 c)

theorem i_rowsum (p : Fin 8192) (c : Fin 1000) (k : Fin 512) :
    idx_main_v13 (idx_main_v14 (idx_main_v20 (ix2 p c))) k = ix2 p k :=
  funext fun a => Fin.ext (by match a with | ⟨0, _⟩ => rfl | ⟨1, _⟩ => rfl)

theorem i_lhs (p : Fin 8192) (c : Fin 1000) (k : Fin 512) : lidx_main_v17 (ix2 p c) k = ix2 p k :=
  funext fun a => Fin.ext (by match a with | ⟨0, _⟩ => rfl | ⟨1, _⟩ => rfl)

theorem i_rhs (p : Fin 8192) (c : Fin 1000) (k : Fin 512) : ridx_main_v17 (ix2 p c) k = ix2 c k :=
  funext fun a => Fin.ext (by match a with | ⟨0, _⟩ => rfl | ⟨1, _⟩ => rfl)

theorem i_norm (p : Fin 8192) (k k' : Fin 512) :
    idx_main_call0_v1 (idx_main_call0_v2 (idx_main_v8 (ix2 p k))) k' = ix2 p k' :=
  funext fun a => Fin.ext (by match a with | ⟨0, _⟩ => rfl | ⟨1, _⟩ => rfl)

theorem i_msq (p : Fin 8192) (c : Fin 1000) : idx_main_v22 (idx_main_v23 (ix2 p c)) = ix1 c :=
  funext fun a => Fin.ext (by match a with | ⟨0, _⟩ => rfl)

/-- The rescaled row as the reference computes it. -/
theorem v11_apply (x0 : (⟨S8192x512, .f32⟩ : BufTy).Contents (Elt Ideal)) (x1 : (⟨S1000x512, .f32⟩ : BufTy).Contents (Elt Ideal))
    (p : Fin 8192) (k : Fin 512) :
    val_main_v11 (F := Ideal) x0 x1 (ix2 p k) = rowQ (a := 8192) (K := 512) x0 (scale x1) p k := by
  rw [val_main_v11_apply, val_main_v9_apply, val_main_v8_apply, val_main_v7_apply, val_main_v5_apply, val_main_call0_v2_apply,
    val_main_call0_v1_apply, val_main_v6_apply, val_main_cst_0_apply, val_main_call0_cst_apply, val_main_v10_apply]
  simp only [val_main_call0_v0_apply, i_norm, Ideal.mulf_def, Ideal.addf_def, Ideal.hostDivf_def, Ideal.hostUnary_sqrt_def,
    Ideal.ofBits_def, Ideal.ofBits_zero_f32, zero_add]
  rfl

/-- The reference's result is the specification's array of the two arguments. -/
theorem ref_eq (x0 : (⟨S8192x512, .f32⟩ : BufTy).Contents (Elt Ideal)) (x1 : (⟨S1000x512, .f32⟩ : BufTy).Contents (Elt Ideal)) :
    val_main_v25 (F := Ideal) x0 x1 = G (a := 8192) (b := 1000) (K := 512) x0 x1 (scale x1) (meanSq x1) := by
  funext i
  obtain ⟨p, c, rfl⟩ : ∃ (p : Fin 8192) (c : Fin 1000), i = ix2 p c := ⟨i 0, i 1, eq_ix2 i⟩
  rw [G_apply, val_main_v25_apply, val_main_v24_apply, val_main_v21_apply, val_main_v20_apply, val_main_v14_apply,
    val_main_v13_apply, val_main_v19_apply, val_main_v18_apply, val_main_cst_3_apply, val_main_v17_apply, val_main_v23_apply,
    val_main_v22_apply, val_main_cst_1_apply]
  simp only [val_main_v12_apply, i_rowsum, i_lhs, i_rhs, i_msq, v11_apply, Ideal.mulf_def, Ideal.addf_def, Ideal.subf_def,
    Ideal.hostNegf_def, Ideal.negf_def, Ideal.ofBits_def, Ideal.ofBits_zero_f32, zero_add]
  rfl

end Cert.Mmlda.Ref

end
-- ==== Proof.lean ====
/-
  The claim: a kernel that scores each input row against 1000 class means — the row divided by its Euclidean norm
  (plus a small ε) and rescaled to the norm of the first mean, then the negated squared distance to every mean,
  written out as -(‖y‖² - 2⟨y, w_c⟩ + ‖w_c‖²) — against the same computation in plain array operations.

  Read at exact values both programs compute, at row p and class c,
      -( Σ_k y_pk² - 2 · Σ_k y_pk · w_ck + q_c ),     q_c = Σ_k w_ck²,     s = √(Σ_k w_0k²),     n_p = √(Σ_k x_pk²) + ε,
  the kernel with y_pk = x_pk · (s / n_p) and the sign taken as 0 - t, the reference with y_pk = (x_pk / n_p) · s and
  the sign as -t.  Since a square root is -∞ or nonnegative and ε is a positive real, n_p is never zero, so both
  quotients are products with n_p⁻¹ and the two forms of y agree by commutativity and associativity of the product on
  the extended reals; 0 - t = -t always.  The equality therefore holds for every input, and the precondition (finite
  inputs) is not used.

  The kernel side: each of the 8 grid points writes 1024 rows of the result from 1024 rows of x, the whole means, and
  the scale and squared norms the host computes before the launch; the blocks cover the result.  The reference side:
  its operations read one at a time.  The kernel's idealization rewrote nothing, so that conjunct is trivial.
-/
import proofs.«166691_j82858509075021_2_alg».proof.Defs
import proofs.«166691_j82858509075021_2_alg».proof.Proof.Gen.Kernel
import proofs.«166691_j82858509075021_2_alg».proof.Proof.Gen.Kernel.Skeleton
import proofs.«166691_j82858509075021_2_alg».proof.Proof.Gen.Kernel.Launch
import proofs.«166691_j82858509075021_2_alg».proof.Proof.Gen.Kernel.Points
import proofs.«166691_j82858509075021_2_alg».proof.Proof.Gen.Kernel.Frame
import proofs.«166691_j82858509075021_2_alg».proof.Proof.Gen.KernelIdeal
import proofs.«166691_j82858509075021_2_alg».proof.Proof.Gen.KernelIdeal.Skeleton
import proofs.«166691_j82858509075021_2_alg».proof.Proof.Gen.KernelIdeal.Launch
import proofs.«166691_j82858509075021_2_alg».proof.Proof.Gen.KernelIdeal.Points
import proofs.«166691_j82858509075021_2_alg».proof.Proof.Gen.KernelIdeal.Frame
import proofs.«166691_j82858509075021_2_alg».proof.Proof.Gen.ReferenceIdeal
import proofs.«166691_j82858509075021_2_alg».proof.Proof.Gen.Pre_finite_inputs
import proofs.«166691_j82858509075021_2_alg».proof.Proof.Gen.KernelIdeal.Value
import proofs.«166691_j82858509075021_2_alg».proof.Proof.Gen.ReferenceIdeal.Run
import proofs.«166691_j82858509075021_2_alg».proof.Proof.Gen.ReferenceIdeal.Read
import proofs.«166691_j82858509075021_2_alg».proof.Proof.KernelValue
import proofs.«166691_j82858509075021_2_alg».proof.Proof.RefValue
import Idealize.ShloMosaic.Adequacy
import Idealize.ShloMosaic.Init

noncomputable section

/-! ## The scale and the squared norms are one function of the means on both sides -/

namespace Cert.Mmlda.Bridge

open Idealize.ShloMosaic Idealize.ShloMosaic.ValueIdx

/-- The scale the host computes before the launch, read at its one entry, is the reference's scale: the same
    operations of the means, the [1, 1] array's entry being the scalar's. -/
theorem scale_eq (w : FVec Ideal Cert.KernelIdeal.S1000x512 .f32) :
    Cert.Mmlda.Kernel.hostScale w (ix2 (0 : Fin 1) (0 : Fin 1)) = Cert.Mmlda.Ref.scale w := by
  unfold Cert.Mmlda.Kernel.hostScale
  exact (shapeCast_apply _ _ (ix2 (0 : Fin 1) (0 : Fin 1)) ix0 rfl).trans rfl

/-- The squared norms the host computes before the launch, read at class q, are the reference's. -/
theorem meanSq_eq (w : FVec Ideal Cert.KernelIdeal.S1000x512 .f32) (q : Fin 1000) :
    Cert.Mmlda.Kernel.hostMeanSq w (ix2 (0 : Fin 1) q) = Cert.Mmlda.Ref.meanSq w q := by
  unfold Cert.Mmlda.Kernel.hostMeanSq
  exact (shapeCast_a_1a_apply _ _ 0 q).trans rfl

/-- So the kernel's result and the reference's are one array of the two arguments. -/
theorem result_eq (x : FVec Ideal Cert.KernelIdeal.S8192x512 .f32) (w : FVec Ideal Cert.KernelIdeal.S1000x512 .f32) :
    Cert.ReferenceIdeal.Read.val_main_v25 (F := Ideal) x w = Cert.Mmlda.Kernel.result x w := by
  rw [Cert.Mmlda.Ref.ref_eq]
  unfold Cert.Mmlda.Kernel.result
  simp only [scale_eq, meanSq_eq]

end Cert.Mmlda.Bridge

/-! ## The claims -/

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the specification's array of the two arguments. -/
theorem algebraic : Cert.algebraic_KernelIdeal_ReferenceIdeal := by
  intro m ρ m' ρ' _ hagree
  refine ⟨_, Cert.Mmlda.Kernel.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v25_eq]
  exact Cert.Mmlda.Bridge.result_eq _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
